-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S2x500000 : Shape := ⟨2, ![2, 500000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : IVec S2x500000 32) (main_arg3 : IVec S2x500000 32) (main_arg4 : FVec F S256x128 .f32) (main_arg5 : FVec F S128 .f32) (main_arg6 : FVec F S128x64 .f32) (main_arg7 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg4
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg6
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg7 main_v13 main_v16
-- ==== Kernel.lean ====
abbrev S100000x256 : Shape := ⟨2, ![100000, 256]⟩
abbrev S2x1600000 : Shape := ⟨2, ![2, 1600000]⟩
abbrev S2x500000 : Shape := ⟨2, ![2, 500000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S10000x256 : Shape := ⟨2, ![10000, 256]⟩
abbrev S10000x128 : Shape := ⟨2, ![10000, 128]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S1700000x64 : Shape := ⟨2, ![1700000, 64]⟩
abbrev S2x1000000 : Shape := ⟨2, ![2, 1000000]⟩
abbrev S1x1000000 : Shape := ⟨2, ![1, 1000000]⟩
abbrev S1000000 : Shape := ⟨1, ![1000000]⟩
abbrev S1000000x1 : Shape := ⟨2, ![1000000, 1]⟩
abbrev S1000000x64 : Shape := ⟨2, ![1000000, 64]⟩
abbrev S10000x1 : Shape := ⟨2, ![10000, 1]⟩
abbrev S1x64 : Shape := ⟨2, ![1, 64]⟩
abbrev S10000 : Shape := ⟨1, ![10000]⟩

abbrev nBuf : Space → Nat
  | .hbm => 111
  | .vmem => 22
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S2x500000, .i32⟩
  | .hbm, ⟨3, _⟩ => ⟨S2x500000, .i32⟩
  | .hbm, ⟨4, _⟩ => ⟨S256x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S2x1000000, .i32⟩
  | .hbm, ⟨87, _⟩ => ⟨S1x1000000, .i32⟩
  | .hbm, ⟨88, _⟩ => ⟨S1000000, .i32⟩
  | .hbm, ⟨89, _⟩ => ⟨S_, .i32⟩
  | .hbm, ⟨90, _⟩ => ⟨S1000000, .i32⟩
  | .hbm, ⟨91, _⟩ => ⟨S1000000, .i1⟩
  | .hbm, ⟨92, _⟩ => ⟨S_, .i32⟩
  | .hbm, ⟨93, _⟩ => ⟨S1000000, .i32⟩
  | .hbm, ⟨94, _⟩ => ⟨S1000000, .i32⟩
  | .hbm, ⟨95, _⟩ => ⟨S1000000, .i32⟩
  | .hbm, ⟨96, _⟩ => ⟨S1000000x1, .i32⟩
  | .hbm, ⟨97, _⟩ => ⟨S1000000x64, .f32⟩
  | .hbm, ⟨98, _⟩ => ⟨S1x1000000, .i32⟩
  | .hbm, ⟨99, _⟩ => ⟨S1000000, .i32⟩
  | .hbm, ⟨100, _⟩ => ⟨S_, .i32⟩
  | .hbm, ⟨101, _⟩ => ⟨S1000000, .i32⟩
  | .hbm, ⟨102, _⟩ => ⟨S1000000, .i1⟩
  | .hbm, ⟨103, _⟩ => ⟨S_, .i32⟩
  | .hbm, ⟨104, _⟩ => ⟨S1000000, .i32⟩
  | .hbm, ⟨105, _⟩ => ⟨S1000000, .i32⟩
  | .hbm, ⟨106, _⟩ => ⟨S1000000, .i32⟩
  | .hbm, ⟨107, _⟩ => ⟨S1000000x1, .i32⟩
  | .hbm, ⟨108, _⟩ => ⟨S1000000x64, .f32⟩
  | .hbm, ⟨109, _⟩ => ⟨S1000000x1, .f32⟩
  | .hbm, ⟨110, _⟩ => ⟨S1000000, .f32⟩
  | .local _ .vmem, ⟨0, _⟩ => ⟨S10000x256, .f32⟩
  | .local _ .vmem, ⟨1, _⟩ => ⟨S10000x256, .f32⟩
  | .local _ .vmem, ⟨2, _⟩ => ⟨S256x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S64, .f32⟩
  | .local _ .vmem, ⟨20, _⟩ => ⟨S10000x1, .f32⟩
  | .local _ .vmem, ⟨21, _⟩ => ⟨S10000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_c_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_15 : Ref sig .tc := ⟨.hbm, 100, rfl⟩
abbrev main_v73 : Ref sig .tc := ⟨.hbm, 101, rfl⟩
abbrev main_v74 : Ref sig .tc := ⟨.hbm, 102, rfl⟩
abbrev main_c_16 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem3_0 : DmaSem sig := 20
abbrev cc3_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S10000x128_S10000x128_0_0 : ∀ a, (![0, 0] : Fin 2 → Nat) a + S10000x128.size a ≤ S10000x128.size a
  h_S10000x128 : 0 < S10000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S10000x128_S10000x128 : S10000x128.ShapeCasts S10000x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  concatenates_S2x500000_S2x500000_S2x1000000_d1 : Shape.Concatenates [S2x500000, S2x500000] S2x1000000 1
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  shapeCasts_S10000x64_S10000x64 : S10000x64.ShapeCasts S10000x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  reduces_S10000x64_S10000 : S10000x64.Reduces [1] S10000
  shapeCasts_S10000_S10000x1 : S10000.ShapeCasts S10000x1
  inb_S10000x1_S10000x1_0_0 : ∀ a, (![0, 0] : Fin 2 → Nat) a + S10000x1.size a ≤ S10000x1.size a
  h_S10000x1 : 0 < S10000x1.numel
  shapeCasts_S1000000x1_S1000000 : S1000000x1.ShapeCasts S1000000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x256_S256x128_S10000x128_1_0_0_1_n_n_wf : DotDims.WF S10000x256 S256x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S100000x64_S1000000x1_S1000000x64_1_0_n_n_0_1_164_wf : GatherDims.WF S100000x64 S1000000x1 S1000000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S1000000x64.size a
  hwx3_0 : ∀ i : grid3.Coords, EltTy.bits .f32 = 32 ∨ (Rect.block (s := S1000000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S1000000x64.size a
  hwx3_1 : ∀ i : grid3.Coords, EltTy.bits .f32 = 32 ∨ (Rect.block (s := S1000000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x1.size a ≤ S1000000x1.size a
  hwx3_3 : ∀ i : grid3.Coords, EltTy.bits .f32 = 32 ∨ (Rect.block (s := S1000000x1) S10000x1.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v70) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v79) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v80) S10000x1.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S2x500000 : Shape := ⟨2, ![2, 500000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S2x1000000 : Shape := ⟨2, ![2, 1000000]⟩
abbrev S1x1000000 : Shape := ⟨2, ![1, 1000000]⟩
abbrev S1000000 : Shape := ⟨1, ![1000000]⟩
abbrev S1000000x1 : Shape := ⟨2, ![1000000, 1]⟩
abbrev S1000000x64 : Shape := ⟨2, ![1000000, 64]⟩

abbrev nBuf : Space → Nat
  | .hbm => 120
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S2x500000, .i32⟩
  | .hbm, ⟨3, _⟩ => ⟨S2x500000, .i32⟩
  | .hbm, ⟨4, _⟩ => ⟨S256x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S100000x128, .f32⟩
  | .hbm, ⟨73, _⟩ => ⟨S100000x128, .f32⟩
  | .hbm, ⟨74, _⟩ => ⟨S100000x64, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x64, .f32⟩
  | .hbm, ⟨84, _⟩ => ⟨S1700000x1, .f32⟩
  | .hbm, ⟨85, _⟩ => ⟨S1700000x64, .f32⟩
  | .hbm, ⟨86, _⟩ => ⟨S1700000x64, .f32⟩
  | .hbm, ⟨87, _⟩ => ⟨S_, .f32⟩
  | .hbm, ⟨88, _⟩ => ⟨S100000x64, .f32⟩
  | .hbm, ⟨89, _⟩ => ⟨S1700000x1, .i32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S100000x64, .f32⟩
  | .hbm, ⟨94, _⟩ => ⟨S2x1000000, .i32⟩
  | .hbm, ⟨95, _⟩ => ⟨S1x1000000, .i32⟩
  | .hbm, ⟨96, _⟩ => ⟨S1000000, .i32⟩
  | .hbm, ⟨97, _⟩ => ⟨S_, .i32⟩
  | .hbm, ⟨98, _⟩ => ⟨S1000000, .i32⟩
  | .hbm, ⟨99, _⟩ => ⟨S1000000, .i1⟩
  | .hbm, ⟨100, _⟩ => ⟨S_, .i32⟩
  | .hbm, ⟨101, _⟩ => ⟨S1000000, .i32⟩
  | .hbm, ⟨102, _⟩ => ⟨S1000000, .i32⟩
  | .hbm, ⟨103, _⟩ => ⟨S1000000, .i32⟩
  | .hbm, ⟨104, _⟩ => ⟨S1000000x1, .i32⟩
  | .hbm, ⟨105, _⟩ => ⟨S1000000x64, .f32⟩
  | .hbm, ⟨106, _⟩ => ⟨S1x1000000, .i32⟩
  | .hbm, ⟨107, _⟩ => ⟨S1000000, .i32⟩
  | .hbm, ⟨108, _⟩ => ⟨S_, .i32⟩
  | .hbm, ⟨109, _⟩ => ⟨S1000000, .i32⟩
  | .hbm, ⟨110, _⟩ => ⟨S1000000, .i1⟩
  | .hbm, ⟨111, _⟩ => ⟨S_, .i32⟩
  | .hbm, ⟨112, _⟩ => ⟨S1000000, .i32⟩
  | .hbm, ⟨113, _⟩ => ⟨S1000000, .i32⟩
  | .hbm, ⟨114, _⟩ => ⟨S1000000, .i32⟩
  | .hbm, ⟨115, _⟩ => ⟨S1000000x1, .i32⟩
  | .hbm, ⟨116, _⟩ => ⟨S1000000x64, .f32⟩
  | .hbm, ⟨117, _⟩ => ⟨S1000000x64, .f32⟩
  | .hbm, ⟨118, _⟩ => ⟨S_, .f32⟩
  | .hbm, ⟨119, _⟩ => ⟨S1000000, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_13 : Ref sig .tc := ⟨.hbm, 97, rfl⟩
abbrev main_v70 : Ref sig .tc := ⟨.hbm, 98, rfl⟩
abbrev main_v71 : Ref sig .tc := ⟨.hbm, 99, rfl⟩
abbrev main_c_14 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_c_15 : Ref sig .tc := ⟨.hbm, 108, rfl⟩
abbrev main_v79 : Ref sig .tc := ⟨.hbm, 109, rfl⟩
abbrev main_v80 : Ref sig .tc := ⟨.hbm, 110, rfl⟩
abbrev main_c_16 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_17 : Ref sig .tc := ⟨.hbm, 118, rfl⟩
abbrev main_v87 : Ref sig .tc := ⟨.hbm, 119, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S2x500000_S2x500000_S2x1000000_d1 : Shape.Concatenates [S2x500000, S2x500000] S2x1000000 1
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  reducesTo_S1000000x64_S1000000_d1 : S1000000x64.ReducesTo [1] S1000000
  h_S_ : 0 < S_.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S100000x64_S1000000x1_S1000000x64_1_0_n_n_0_1_164_wf : GatherDims.WF S100000x64 S1000000x1 S1000000x64 [1] [0] [] [0] [] 1 ![1, 64]

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf

class Facts : Prop extends Facts₀ where

variable [Facts]
-- ==== Proof.KRun.lean ====
/-
  The idealized kernel's run, with its result kept.

  The program is four pipelined regions among stretches of host operations. Run from any memory, every weakly fair
  execution ends; the result buffer then holds what the last stretch of host operations (one reshape) leaves of the
  contents the fourth region ends at, and the eight argument arrays are as launched. The contents at each boundary
  between stretches and regions are the fold `W0 … W10` of the generated frame: a stretch maps the contents through
  its operations, a region replaces its arrays by what its write-backs leave. The statement is the frame's with the
  final contents of the result buffer read as well; the later modules evaluate `W10` at that buffer.
-/
import proofs.«166993_j22892175688228_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the idealized kernel ends with the result buffer at the last boundary's
    contents and the arguments as launched. -/
theorem run_result : θ_run defs (onTc (τ := τ) (main (F := F))) ⟨m, fun _ => 0, ρ⟩ (fun r => ∀ c : Dev nD,
      r.2.mem ((c.tc : Thread nD τ).loc main_v81) = W10 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v81 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.Result

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.LibRowSum.lean ====
/-
  A sum along the rows of a matrix, read at an index on the extended reals: a lane reduction of an [n, k] matrix
  over its columns, into the zero accumulator, is at row r the sum over the k columns of the row's entries.
-/
import Idealize.ShloMosaic.PureOps.Ideal.Laws
import Idealize.ShloMosaic.Lib.ValueIdx

namespace Idealize.ShloMosaic.ValueIdx

open Idealize.ShloMosaic

/-- The reduced index `r` with the column `d` put back is the matrix index `(r, d)`. -/
theorem lift_rows {n k : ℕ} (h : (⟨2, ![n, k]⟩ : Shape).Reduces [1] ⟨1, ![n]⟩) (r : Fin n) (d : Fin k) :
    h.lift (ix1 r) d = ix2 r d :=
  funext fun a => Fin.ext (by match a with | ⟨0, _⟩ => rfl | ⟨1, _⟩ => rfl)

/-- A float lane sum over the columns of an `[n, k]` matrix, at row `r`, is the sum of the row's `k` entries. -/
theorem multiReduction_add_rows_apply {n k : ℕ} (src : FVec Ideal ⟨2, ![n, k]⟩ .f32)
    (h : (⟨2, ![n, k]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ d : Fin k, src (ix2 r d) :=
  (Ideal.multiReduction_add_single src 0x00000000#32 h hφ hacc (ix1 r)).trans
    (Finset.sum_congr rfl fun d _ => congrArg src (lift_rows h r d))

end Idealize.ShloMosaic.ValueIdx
-- ==== Proof.LibColumn.lean ====
/-
  A column kept as a unit trailing axis (what `jnp.sum(…, keepdims=True)` over the last axis produces), read at an
  index: a vector of length a viewed as an [a, 1] column, and an [a, 1] column broadcast along the rows of an
  [a, b] matrix. (The library has the leading-unit-axis forms and the row broadcast [1, b] → [a, b]; these are the
  trailing-unit-axis counterparts, for any extents.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Stored.lean ====
/-
  What each of the four kernel bodies stores, read at one entry, over the extended reals.

  * the two matrix-product bodies (a [10000, K] block of rows times a whole [K, n] weight matrix, into a zero
    accumulator; the casts to a narrower float format are the identity here): entry (p, q) is ∑ k, a (p, k) · w (k, q);
  * the bias-and-rectify body: entry (p, q) is max (a (p, q) + b q) 0;
  * the edge-score body: for each of the block's 10000 edges p, the one entry (p, 0) of the stored column is
    ∑ d < 64, (zu (p, d) + b d) · (zv (p, d) + b d).
-/
import proofs.«166993_j22892175688228_2_alg».proof.Proof.Gen.KernelIdeal.Skeleton
import proofs.«166993_j22892175688228_2_alg».proof.Proof.LibContract
import proofs.«166993_j22892175688228_2_alg».proof.Proof.LibRowSum
import proofs.«166993_j22892175688228_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Stored

open Cert.KernelIdeal Cert.KernelIdeal.Gen Idealize.ShloMosaic Idealize.ShloMosaic.ValueIdx

/-- The first matrix product's block: entry (p, q) is the row p of the block against the column q of the weights. -/
theorem matmul1_apply (a : Vec Ideal S10000x256 .f32) (w : Vec Ideal S256x128 .f32) (p : Fin 10000) (q : Fin 128) :
    k0_pay1 (F := Ideal) a w (ix2 p q) = ∑ k : Fin 256, a (ix2 p k) * w (ix2 k q) := by
  unfold k0_pay1
  refine (Ideal.matmul_constant_zero_apply dot_S10000x256_S256x128_S10000x128_1_0_0_1_n_n none _ _ (ix2 p q)).trans ?_
  exact Contract2.sum_contr_eq_sum_fin dot_S10000x256_S256x128_S10000x128_1_0_0_1_n_n rfl rfl rfl rfl
    (fun j q => by
      unfold DotDims.lhsIdx
      rw [dif_neg (show ¬(0 : Fin S10000x256.rank) ∈ dot_S10000x256_S256x128_S10000x128_1_0_0_1_n_n.lhsBatch by decide),
        dif_pos (show (0 : Fin S10000x256.rank) ∈ dot_S10000x256_S256x128_S10000x128_1_0_0_1_n_n.lhsNonContracting by decide)]
      rfl)
    (fun j q => by
      unfold DotDims.rhsIdx
      rw [dif_neg (show ¬(1 : Fin S256x128.rank) ∈ dot_S10000x256_S256x128_S10000x128_1_0_0_1_n_n.rhsBatch by decide),
        dif_pos (show (1 : Fin S256x128.rank) ∈ dot_S10000x256_S256x128_S10000x128_1_0_0_1_n_n.rhsNonContracting by decide)]
      rfl)
    _ _ (ix2 p q)

/-- The second matrix product's block, likewise. -/
theorem matmul2_apply (a : Vec Ideal S10000x128 .f32) (w : Vec Ideal S128x64 .f32) (p : Fin 10000) (q : Fin 64) :
    k2_pay1 (F := Ideal) a w (ix2 p q) = ∑ k : Fin 128, a (ix2 p k) * w (ix2 k q) := by
  unfold k2_pay1
  refine (Ideal.matmul_constant_zero_apply dot_S10000x128_S128x64_S10000x64_1_0_0_1_n_n none _ _ (ix2 p q)).trans ?_
  refine (Contract2.sum_contr_eq_sum_fin dot_S10000x128_S128x64_S10000x64_1_0_0_1_n_n rfl rfl rfl rfl
    (fun j q => by
      unfold DotDims.lhsIdx
      rw [dif_neg (show ¬(0 : Fin S10000x128.rank) ∈ dot_S10000x128_S128x64_S10000x64_1_0_0_1_n_n.lhsBatch by decide),
        dif_pos (show (0 : Fin S10000x128.rank) ∈ dot_S10000x128_S128x64_S10000x64_1_0_0_1_n_n.lhsNonContracting by decide)]
      rfl)
    (fun j q => by
      unfold DotDims.rhsIdx
      rw [dif_neg (show ¬(1 : Fin S128x64.rank) ∈ dot_S10000x128_S128x64_S10000x64_1_0_0_1_n_n.rhsBatch by decide),
        dif_pos (show (1 : Fin S128x64.rank) ∈ dot_S10000x128_S128x64_S10000x64_1_0_0_1_n_n.rhsNonContracting by decide)]
      rfl)
    _ _ (ix2 p q)).trans ?_
  refine Finset.sum_congr rfl fun k _ => ?_
  show shapeCast S10000x128 a shapeCasts_S10000x128_S10000x128 (ix2 p k) * w (ix2 k q) = _
  rw [shapeCast_self]

/-- The bias-and-rectify block: entry (p, q) is the larger of a (p, q) + b q and zero. -/
theorem biasRelu_apply (a : Vec Ideal S10000x128 .f32) (b : Vec Ideal S128 .f32) (p : Fin 10000) (q : Fin 128) :
    k1_pay1 (F := Ideal) a b (ix2 p q)
      = max (a (ix2 p q) + b (ix1 q)) (Ideal.ofBits .f32 0x00000000#32) := by
  unfold k1_pay1
  show max (shapeCast S10000x128 a shapeCasts_S10000x128_S10000x128 (ix2 p q)
      + broadcastTo S10000x128 (shapeCast S1x128 b shapeCasts_S128_S1x128) broadcasts_S1x128_S10000x128 (ix2 p q))
      (Ideal.ofBits .f32 0x00000000#32) = _
  rw [shapeCast_self, broadcastTo_1b_ab_apply, shapeCast_a_1a_apply]

/-- The edge-score block: the one stored entry of edge p is the inner product of its two biased feature rows. -/
theorem score_apply (zu zv : Vec Ideal S10000x64 .f32) (b b' : Vec Ideal S64 .f32) (p : Fin 10000) (u : Fin 1) :
    k3_pay1 (F := Ideal) zu b zv b' (ix2 p u)
      = ∑ d : Fin 64, (zu (ix2 p d) + b (ix1 d)) * (zv (ix2 p d) + b' (ix1 d)) := by
  unfold k3_pay1
  refine (shapeCast_a_a1_apply _ shapeCasts_S10000_S10000x1 p u).trans ?_
  refine (multiReduction_add_rows_apply _ reduces_S10000x64_S10000 (.inl rfl) rfl p).trans ?_
  refine Finset.sum_congr rfl fun d _ => ?_
  show (shapeCast S10000x64 zu shapeCasts_S10000x64_S10000x64 (ix2 p d)
      + broadcastTo S10000x64 (shapeCast S1x64 b shapeCasts_S64_S1x64) broadcasts_S1x64_S10000x64 (ix2 p d))
      * (shapeCast S10000x64 zv shapeCasts_S10000x64_S10000x64 (ix2 p d)
      + broadcastTo S10000x64 (shapeCast S1x64 b' shapeCasts_S64_S1x64) broadcasts_S1x64_S10000x64 (ix2 p d)) = _
  rw [shapeCast_self, shapeCast_self, broadcastTo_1b_ab_apply, broadcastTo_1b_ab_apply, shapeCast_a_1a_apply,
    shapeCast_a_1a_apply]

end Cert.KernelIdeal.Stored

end
-- ==== Proof.Product1.lean ====
/-
  The first matrix-product region as one function of its arrays.

  The region runs over ten grid points; at point t it reads rows [10000 t, 10000 t + 10000) of the node features
  (a [100000, 256] array) and the whole [256, 128] weight matrix, and writes the same rows of the [100000, 128]
  result. Block t of what it writes is block t of the whole product x · W: entry (10000 t + p, q) of the product
  sums x (10000 t + p, k) · W (k, q) over k, which is the row p of the block against column q. The ten row blocks
  cover the result array, so after the region the array is x · W, for whatever the region finds in its arrays.
-/
import proofs.«166993_j22892175688228_2_alg».proof.Proof.Gen.KernelIdeal.Frame
import proofs.«166993_j22892175688228_2_alg».proof.Proof.Stored
import proofs.«166993_j22892175688228_2_alg».proof.Proof.RefRead

set_option maxRecDepth 16384

noncomputable section

open scoped BigOperators

namespace Cert.KernelIdeal.Product1

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: the feature rows and the result rows move with the point, the weights stay. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The whole product of the arrays the region finds. -/
abbrev product (c : Dev nD) : S100000x128.Idx → Elt Ideal .f32 :=
  Cert.ReferenceIdeal.ReadP.val_main_v32 (F := Ideal) (V c main_arg0) (V c main_arg4)

/-- What point t writes back is block t of the whole product. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero zero_offsets]
  simp only [View.ld_unit_zero (S := S10000x256) zero_offsets, View.ld_unit_zero (S := S256x128) zero_offsets]
  obtain ⟨e0, e1, e2, e3, e4, e5⟩ := index_maps t
  funext j
  obtain ⟨p, q, rfl⟩ : ∃ (p : Fin 10000) (q : Fin 128), j = ix2 p q := ⟨j 0, j 1, eq_ix2 j⟩
  show k0_pay1 (iblk0 V c 0 t) (iblk0 V c 1 t) (ix2 p q) = product V c (((cfg0.win 2).blk t).view.emb (ix2 p q))
  refine (Stored.matmul1_apply _ _ p q).trans ?_
  refine Eq.trans ?_ (Cert.ReferenceIdeal.ReadP.val_main_v32_apply _ _ _).symm
  refine Finset.sum_congr rfl fun k _ => ?_
  refine congrArg₂ (· * ·) ?_ ?_
  · show V c main_arg0 (((cfg0.win 0).blk t).view.emb (ix2 p k)) = V c main_arg0 _
    refine congrArg (V c main_arg0) (funext fun a => Fin.ext ?_)
    match a with
    | ⟨0, _⟩ => show win0_0.index t (0 : Fin 2) * 10000 + 1 * p.val = win0_2.index t (0 : Fin 2) * 10000 + 1 * p.val; omega
    | ⟨1, _⟩ => show win0_0.index t (1 : Fin 2) * 256 + 1 * k.val = k.val; omega
  · show V c main_arg4 (((cfg0.win 1).blk t).view.emb (ix2 k q)) = V c main_arg4 _
    refine congrArg (V c main_arg4) (funext fun a => Fin.ext ?_)
    match a with
    | ⟨0, _⟩ => show win0_1.index t (0 : Fin 2) * 256 + 1 * k.val = k.val; omega
    | ⟨1, _⟩ => show win0_1.index t (1 : Fin 2) * 128 + 1 * q.val = win0_2.index t (1 : Fin 2) * 128 + 1 * q.val; omega

/-- An index of the result array is in point t's block iff each coordinate is in the block's range. -/
theorem mem_block (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v32).slice (win0_2.rect t)).set ↔ _
  rw [View.set_slice_whole, Rect.mem_set_unit]
  exact Iff.rfl

/-- Every row of the result is in the block of the point that is its row number divided by 10000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : (i 0).val / 10000 < cfg0.N := by show _ < 10; omega
  refine ⟨⟨(i 0).val / 10000, hN⟩, flush0_2 _, ?_⟩
  obtain ⟨e0, e1, e2, e3, e4, e5⟩ := index_maps ⟨(i 0).val / 10000, hN⟩
  rw [mem_block]
  intro a
  match a with
  | ⟨0, _⟩ =>
    show win0_2.index ⟨(i 0).val / 10000, hN⟩ (0 : Fin 2) * 10000 ≤ (i 0).val
      ∧ (i 0).val < win0_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, hN⟩ (1 : Fin 2) * 128 ≤ (i 1).val
      ∧ (i 1).val < win0_2.index ⟨(i 0).val / 10000, hN⟩ (1 : Fin 2) * 128 + 128
    rw [e5]; omega

/-- After the region its result array is the whole product of the arrays it found. -/
theorem final (c : Dev nD) : (dat0 V c).arrAt 2 cfg0.N = product V c :=
  (dat0 V c).arrAt_eq_of_cover 2 (product V c) (fun t _ => flushed_eq V c t) (cover)

end Cert.KernelIdeal.Product1

end
-- ==== Proof.Rectify.lean ====
/-
  The bias-and-rectify region as one function of its arrays.

  The region runs over ten grid points; at point t it reads rows [10000 t, 10000 t + 10000) of the aggregated
  [100000, 128] features and the whole bias vector [128], and writes the same rows of its [100000, 128] result.
  Entry (p, q) of the block it writes is max (agg (10000 t + p, q) + b q) 0, which is the entry at row
  10000 t + p of the whole-array function "add the bias spread down the rows, then take the maximum with zero".
  The ten row blocks cover the result array.
-/
import proofs.«166993_j22892175688228_2_alg».proof.Proof.Gen.KernelIdeal.Frame
import proofs.«166993_j22892175688228_2_alg».proof.Proof.Stored
import proofs.«166993_j22892175688228_2_alg».proof.Proof.RefRead

set_option maxRecDepth 16384

noncomputable section

open scoped BigOperators

namespace Cert.KernelIdeal.Rectify

open Cert.KernelIdeal Cert.KernelIdeal.Gen Idealize.ShloMosaic Idealize.ShloMosaic.TcCoe Idealize.ShloMosaic.ValueIdx
open Idealize.SL.Sem
open Idealize.ShloMosaic.Pipeline (Dat)
open Cert.ReferenceIdeal.ReadP (val_main_v46 val_main_v47 val_main_call1_v0 val_main_call1_cst val_main_v46_apply
  val_main_v47_apply val_main_call1_v0_apply)

variable (V : (c : Dev nD) → (b : Ref sig .tc) → Buf (Elt Ideal) ((c : Thread nD τ).loc b))

theorem zero_offsets2 : (![0, 0] : Fin 2 → Nat) = fun _ => 0 := funext fun a => by fin_cases a <;> rfl
theorem zero_offsets1 : (![0] : Fin 1 → Nat) = fun _ => 0 := funext fun a => by fin_cases a; rfl

/-- The index maps over the grid: the feature rows and the result rows move with the point, the bias stays. -/
theorem index_maps : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- The aggregated features the region finds. -/
abbrev agg (c : Dev nD) : FVec Ideal S100000x128 .f32 := V c main_v45
/-- The bias vector the region finds. -/
abbrev bias (c : Dev nD) : FVec Ideal S128 .f32 := V c main_arg5

/-- The aggregated features plus the bias spread down the rows, rectified. -/
abbrev rectified (c : Dev nD) : FVec Ideal S100000x128 .f32 :=
  maximumf (addf (agg V c) (val_main_v47 (F := Ideal) (bias V c))) (val_main_call1_v0 (F := Ideal))

/-- The whole-array function at an entry. -/
theorem rectified_apply (c : Dev nD) (r : Fin 100000) (q : Fin 128) :
    rectified V c (ix2 r q) = max (agg V c (ix2 r q) + bias V c (ix1 q)) (Ideal.ofBits .f32 0x00000000#32) := by
  show max (agg V c (ix2 r q) + val_main_v47 (F := Ideal) (bias V c) (ix2 r q))
    (val_main_call1_v0 (F := Ideal) (ix2 r q)) = _
  rw [val_main_v47_apply, val_main_v46_apply, val_main_call1_v0_apply]
  have hidx : Cert.ReferenceIdeal.ReadP.idx_main_v46 (Cert.ReferenceIdeal.ReadP.idx_main_v47 (ix2 r q)) = ix1 q :=
    funext fun a => Fin.ext (by match a with | ⟨0, _⟩ => rfl)
  rw [hidx]
  rfl

/-- What point t writes back is block t of the whole-array function. -/
theorem flushed_eq (c : Dev nD) (t : Fin cfg1.N) :
    (dat1 V c).flushed 2 t = ((cfg1.win 2).blk t).view.read (Elt Ideal) (rectified V c) := by
  show (cfg1.win 2).cut (grid1.coords t) ((dat1 V c).after 2 t) = _
  rw [after1_2]
  unfold out1_2
  rw [View.canon_unit_zero zero_offsets2]
  simp only [View.ld_unit_zero (S := S10000x128) zero_offsets2, View.ld_unit_zero (S := S128) zero_offsets1]
  obtain ⟨e0, e1, e2, e3, e4⟩ := index_maps t
  funext j
  obtain ⟨p, q, rfl⟩ : ∃ (p : Fin 10000) (q : Fin 128), j = ix2 p q := ⟨j 0, j 1, eq_ix2 j⟩
  have hrow : win1_2.index t (0 : Fin 2) * 10000 + 1 * p.val < 100000 := by
    have := t.isLt; have : t.val < 10 := this; have := p.isLt; omega
  have hemb : ((cfg1.win 2).blk t).view.emb (ix2 p q) = ix2 ⟨win1_2.index t (0 : Fin 2) * 10000 + 1 * p.val, hrow⟩ q :=
    funext fun a => Fin.ext (by
      match a with
      | ⟨0, _⟩ => rfl
      | ⟨1, _⟩ => show win1_2.index t (1 : Fin 2) * 128 + 1 * q.val = q.val; omega)
  show k1_pay1 (iblk1 V c 0 t) (iblk1 V c 1 t) (ix2 p q) = rectified V c (((cfg1.win 2).blk t).view.emb (ix2 p q))
  rw [hemb]
  refine (Stored.biasRelu_apply _ _ p q).trans ?_
  refine Eq.trans ?_ (rectified_apply V c _ q).symm
  refine congrArg₂ (fun a b => max (a + b) (Ideal.ofBits .f32 0x00000000#32)) ?_ ?_
  · show agg V c (((cfg1.win 0).blk t).view.emb (ix2 p q)) = agg V c _
    refine congrArg (agg V c) (funext fun a => Fin.ext ?_)
    match a with
    | ⟨0, _⟩ => show win1_0.index t (0 : Fin 2) * 10000 + 1 * p.val = win1_2.index t (0 : Fin 2) * 10000 + 1 * p.val; omega
    | ⟨1, _⟩ => show win1_0.index t (1 : Fin 2) * 128 + 1 * q.val = q.val; omega
  · show bias V c (((cfg1.win 1).blk t).view.emb (ix1 q)) = bias V c _
    refine congrArg (bias V c) (funext fun a => Fin.ext ?_)
    match a with
    | ⟨0, _⟩ => show win1_1.index t (0 : Fin 1) * 128 + 1 * q.val = q.val; omega

/-- An index of the result array is in point t's block iff each coordinate is in the block's range. -/
theorem mem_block (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v46).slice (win1_2.rect t)).set ↔ _
  rw [View.set_slice_whole, Rect.mem_set_unit]
  exact Iff.rfl

/-- Every row of the result is in the block of the point that is its row number divided by 10000. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : (i 0).val / 10000 < cfg1.N := by show _ < 10; omega
  refine ⟨⟨(i 0).val / 10000, hN⟩, flush1_2 _, ?_⟩
  obtain ⟨e0, e1, e2, e3, e4⟩ := index_maps ⟨(i 0).val / 10000, hN⟩
  rw [mem_block]
  intro a
  match a with
  | ⟨0, _⟩ =>
    show win1_2.index ⟨(i 0).val / 10000, hN⟩ (0 : Fin 2) * 10000 ≤ (i 0).val
      ∧ (i 0).val < win1_2.index ⟨(i 0).val / 10000, hN⟩ (0 : Fin 2) * 10000 + 10000
    rw [e3]; show (i 0).val / 10000 * 10000 ≤ (i 0).val ∧ (i 0).val < (i 0).val / 10000 * 10000 + 10000; omega
  | ⟨1, _⟩ =>
    show win1_2.index ⟨(i 0).val / 10000, hN⟩ (1 : Fin 2) * 128 ≤ (i 1).val
      ∧ (i 1).val < win1_2.index ⟨(i 0).val / 10000, hN⟩ (1 : Fin 2) * 128 + 128
    rw [e4]; omega

/-- After the region its result array is the whole-array function of the arrays it found. -/
theorem final (c : Dev nD) : (dat1 V c).arrAt 2 cfg1.N = rectified V c :=
  (dat1 V c).arrAt_eq_of_cover 2 (rectified V c) (fun t _ => flushed_eq V c t) (cover)

/-- The same, with the two arrays the region found named. -/
theorem final_of (c : Dev nD) (a : FVec Ideal S100000x128 .f32) (b : FVec Ideal S128 .f32)
    (ha : V c main_v45 = a) (hb : V c main_arg5 = b) :
    (dat1 V c).arrAt 2 cfg1.N
      = maximumf (addf a (val_main_v47 (F := Ideal) b)) (val_main_call1_v0 (F := Ideal)) := by
  rw [final]
  show (maximumf (addf (agg V c) (val_main_v47 (F := Ideal) (bias V c))) (val_main_call1_v0 (F := Ideal))
    : FVec Ideal S100000x128 .f32) = _
  rw [show agg V c = a from ha, show bias V c = b from hb]

end Cert.KernelIdeal.Rectify

end
-- ==== Proof.Product2.lean ====
/-
  The second matrix-product region as one function of its arrays.

  The region runs over ten grid points; at point t it reads rows [10000 t, 10000 t + 10000) of the rectified
  [100000, 128] features and the whole [128, 64] weight matrix, and writes the same rows of the [100000, 64]
  result. Block t of what it writes is block t of the whole product h · W: entry (10000 t + p, q) of the product
  sums h (10000 t + p, k) · W (k, q) over k. The ten row blocks cover the result array, so after the region the
  array is the product, for whatever the region finds in its arrays.
-/
import proofs.«166993_j22892175688228_2_alg».proof.Proof.Gen.KernelIdeal.Frame
import proofs.«166993_j22892175688228_2_alg».proof.Proof.Stored
import proofs.«166993_j22892175688228_2_alg».proof.Proof.LibContract
import proofs.«166993_j22892175688228_2_alg».proof.Proof.RefRead

set_option maxRecDepth 16384

noncomputable section

open scoped BigOperators

namespace Cert.KernelIdeal.Product2

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: the feature rows and the result rows move with the point, the weights stay. -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The rectified features the region finds. -/
abbrev feats (c : Dev nD) : FVec Ideal S100000x128 .f32 := V c main_v46
/-- The weight matrix the region finds. -/
abbrev weights (c : Dev nD) : FVec Ideal S128x64 .f32 := V c main_arg6

/-- The whole product of the arrays the region finds. -/
abbrev product (c : Dev nD) : FVec Ideal S100000x64 .f32 :=
  Host.dotGeneral Cert.ReferenceIdeal.dot_S100000x128_S128x64_S100000x64_1_0_0_1_n_n none (feats V c) (weights V c)

/-- The whole product at an entry: the row of the features against the column of the weights. -/
theorem product_apply (c : Dev nD) (i : S100000x64.Idx) :
    product V c i = ∑ k : Fin 128, feats V c (ix2 (i 0) k) * weights V c (ix2 k (i 1)) := by
  show Host.dotGeneral Cert.ReferenceIdeal.dot_S100000x128_S128x64_S100000x64_1_0_0_1_n_n none (feats V c) (weights V c) i = _
  simp only [Host.dotGeneral]
  rw [Ideal.dotGeneral_apply]
  exact Contract2.sum_contr_eq_sum_fin Cert.ReferenceIdeal.dot_S100000x128_S128x64_S100000x64_1_0_0_1_n_n rfl rfl rfl rfl
    (fun j q => Cert.ReferenceIdeal.ReadP.lhs_main_v50_0 j q) (fun j q => Cert.ReferenceIdeal.ReadP.rhs_main_v50_1 j q)
    (feats V c) (weights V c) i

/-- What point t writes back is block t of the whole product. -/
theorem flushed_eq (c : Dev nD) (t : Fin cfg2.N) :
    (dat2 V c).flushed 2 t = ((cfg2.win 2).blk t).view.read (Elt Ideal) (product V c) := by
  show (cfg2.win 2).cut (grid2.coords t) ((dat2 V c).after 2 t) = _
  rw [after2_2]
  unfold out2_2
  rw [View.canon_unit_zero zero_offsets]
  simp only [View.ld_unit_zero (S := S10000x128) zero_offsets, View.ld_unit_zero (S := S128x64) zero_offsets]
  obtain ⟨e0, e1, e2, e3, e4, e5⟩ := index_maps t
  funext j
  obtain ⟨p, q, rfl⟩ : ∃ (p : Fin 10000) (q : Fin 64), j = ix2 p q := ⟨j 0, j 1, eq_ix2 j⟩
  show k2_pay1 (iblk2 V c 0 t) (iblk2 V c 1 t) (ix2 p q) = product V c (((cfg2.win 2).blk t).view.emb (ix2 p q))
  refine (Stored.matmul2_apply _ _ p q).trans ?_
  refine Eq.trans ?_ (product_apply V c _).symm
  refine Finset.sum_congr rfl fun k _ => ?_
  refine congrArg₂ (· * ·) ?_ ?_
  · show feats V c (((cfg2.win 0).blk t).view.emb (ix2 p k)) = feats V c _
    refine congrArg (feats V c) (funext fun a => Fin.ext ?_)
    match a with
    | ⟨0, _⟩ => show win2_0.index t (0 : Fin 2) * 10000 + 1 * p.val = win2_2.index t (0 : Fin 2) * 10000 + 1 * p.val; omega
    | ⟨1, _⟩ => show win2_0.index t (1 : Fin 2) * 128 + 1 * k.val = k.val; omega
  · show weights V c (((cfg2.win 1).blk t).view.emb (ix2 k q)) = weights V c _
    refine congrArg (weights V c) (funext fun a => Fin.ext ?_)
    match a with
    | ⟨0, _⟩ => show win2_1.index t (0 : Fin 2) * 128 + 1 * k.val = k.val; omega
    | ⟨1, _⟩ => show win2_1.index t (1 : Fin 2) * 64 + 1 * q.val = win2_2.index t (1 : Fin 2) * 64 + 1 * q.val; omega

/-- An index of the result array is in point t's block iff each coordinate is in the block's range. -/
theorem mem_block (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v47).slice (win2_2.rect t)).set ↔ _
  rw [View.set_slice_whole, Rect.mem_set_unit]
  exact Iff.rfl

/-- Every row of the result is in the block of the point that is its row number divided by 10000. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : (i 0).val / 10000 < cfg2.N := by show _ < 10; omega
  refine ⟨⟨(i 0).val / 10000, hN⟩, flush2_2 _, ?_⟩
  obtain ⟨e0, e1, e2, e3, e4, e5⟩ := index_maps ⟨(i 0).val / 10000, hN⟩
  rw [mem_block]
  intro a
  match a with
  | ⟨0, _⟩ =>
    show win2_2.index ⟨(i 0).val / 10000, hN⟩ (0 : Fin 2) * 10000 ≤ (i 0).val
      ∧ (i 0).val < win2_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win2_2.index ⟨(i 0).val / 10000, hN⟩ (1 : Fin 2) * 64 ≤ (i 1).val
      ∧ (i 1).val < win2_2.index ⟨(i 0).val / 10000, hN⟩ (1 : Fin 2) * 64 + 64
    rw [e5]; omega

/-- After the region its result array is the whole product of the arrays it found. -/
theorem final (c : Dev nD) : (dat2 V c).arrAt 2 cfg2.N = product V c :=
  (dat2 V c).arrAt_eq_of_cover 2 (product V c) (fun t _ => flushed_eq V c t) (cover)

/-- The same, with the two arrays the region found named. -/
theorem final_of (c : Dev nD) (a : FVec Ideal S100000x128 .f32) (w : FVec Ideal S128x64 .f32)
    (ha : V c main_v46 = a) (hw : V c main_arg6 = w) :
    (dat2 V c).arrAt 2 cfg2.N
      = Host.dotGeneral Cert.ReferenceIdeal.dot_S100000x128_S128x64_S100000x64_1_0_0_1_n_n none a w := by
  rw [final]
  show Host.dotGeneral Cert.ReferenceIdeal.dot_S100000x128_S128x64_S100000x64_1_0_0_1_n_n none
    (feats V c) (weights V c) = _
  rw [show feats V c = a from ha, show weights V c = w from hw]

end Cert.KernelIdeal.Product2

end
-- ==== Proof.Scores.lean ====
/-
  The edge-score region as one function of its arrays.

  The region runs over a hundred grid points; at point t it reads rows [10000 t, 10000 t + 10000) of the two
  gathered [1000000, 64] feature tables (one row per edge end) and the whole bias vector [64], and writes the same
  rows of a [1000000, 1] column. The entry it writes for edge 10000 t + p is the inner product over the 64
  features of (zu + b) and (zv + b) at that edge, so block t of what is written is block t of the whole column of
  edge scores. The hundred blocks cover the column.
-/
import proofs.«166993_j22892175688228_2_alg».proof.Proof.Gen.KernelIdeal.Frame
import proofs.«166993_j22892175688228_2_alg».proof.Proof.Stored

set_option maxRecDepth 16384

noncomputable section

open scoped BigOperators

namespace Cert.KernelIdeal.Scores

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zero_offsets2 : (![0, 0] : Fin 2 → Nat) = fun _ => 0 := funext fun a => by fin_cases a <;> rfl
theorem zero_offsets1 : (![0] : Fin 1 → Nat) = fun _ => 0 := funext fun a => by fin_cases a; rfl

/-- The index maps over the grid: the two feature tables and the score column move with the point, the bias stays. -/
theorem index_maps : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

/-- The feature rows gathered at the edges' first ends, as the region finds them. -/
abbrev zu (c : Dev nD) : FVec Ideal S1000000x64 .f32 := V c main_v70
/-- The feature rows gathered at the edges' second ends. -/
abbrev zv (c : Dev nD) : FVec Ideal S1000000x64 .f32 := V c main_v79
/-- The bias vector the region finds. -/
abbrev bias (c : Dev nD) : FVec Ideal S64 .f32 := V c main_arg7

/-- The score of edge e: the inner product of its two biased feature rows. -/
def scoreOf (c : Dev nD) (e : Fin 1000000) : EReal :=
  ∑ d : Fin 64, (zu V c (ix2 e d) + bias V c (ix1 d)) * (zv V c (ix2 e d) + bias V c (ix1 d))

/-- The whole column of edge scores. -/
def column (c : Dev nD) : FVec Ideal S1000000x1 .f32 := fun i => scoreOf V c ⟨(i 0).val, idx2_lt0 i⟩

/-- What point t writes back is block t of the whole column. -/
theorem flushed_eq (c : Dev nD) (t : Fin cfg3.N) :
    (dat3 V c).flushed 3 t = ((cfg3.win 3).blk t).view.read (Elt Ideal) (column V c) := by
  show (cfg3.win 3).cut (grid3.coords t) ((dat3 V c).after 3 t) = _
  rw [after3_3]
  unfold out3_3
  rw [View.canon_unit_zero zero_offsets2]
  simp only [View.ld_unit_zero (S := S10000x64) zero_offsets2, View.ld_unit_zero (S := S64) zero_offsets1]
  obtain ⟨e0, e1, e2, e3, e4, e5, e6⟩ := index_maps t
  funext j
  obtain ⟨p, u, rfl⟩ : ∃ (p : Fin 10000) (u : Fin 1), j = ix2 p u := ⟨j 0, j 1, eq_ix2 j⟩
  show k3_pay1 (iblk3 V c 0 t) (iblk3 V c 2 t) (iblk3 V c 1 t) (iblk3 V c 2 t) (ix2 p u)
    = column V c (((cfg3.win 3).blk t).view.emb (ix2 p u))
  refine (Stored.score_apply _ _ _ _ p u).trans ?_
  unfold column scoreOf
  refine Finset.sum_congr rfl fun d _ => ?_
  have h0 : iblk3 V c 0 t (ix2 p d) = zu V c (ix2 ⟨((((cfg3.win 3).blk t).view.emb (ix2 p u)) 0).val,
      idx2_lt0 (((cfg3.win 3).blk t).view.emb (ix2 p u))⟩ d) := by
    show zu V c (((cfg3.win 0).blk t).view.emb (ix2 p d)) = zu V c _
    refine congrArg (zu V c) (funext fun a => Fin.ext ?_)
    match a with
    | ⟨0, _⟩ => show win3_0.index t (0 : Fin 2) * 10000 + 1 * p.val = win3_3.index t (0 : Fin 2) * 10000 + 1 * p.val; omega
    | ⟨1, _⟩ => show win3_0.index t (1 : Fin 2) * 64 + 1 * d.val = d.val; omega
  have h1 : iblk3 V c 1 t (ix2 p d) = zv V c (ix2 ⟨((((cfg3.win 3).blk t).view.emb (ix2 p u)) 0).val,
      idx2_lt0 (((cfg3.win 3).blk t).view.emb (ix2 p u))⟩ d) := by
    show zv V c (((cfg3.win 1).blk t).view.emb (ix2 p d)) = zv V c _
    refine congrArg (zv V c) (funext fun a => Fin.ext ?_)
    match a with
    | ⟨0, _⟩ => show win3_1.index t (0 : Fin 2) * 10000 + 1 * p.val = win3_3.index t (0 : Fin 2) * 10000 + 1 * p.val; omega
    | ⟨1, _⟩ => show win3_1.index t (1 : Fin 2) * 64 + 1 * d.val = d.val; omega
  have h2 : iblk3 V c 2 t (ix1 d) = bias V c (ix1 d) := by
    show bias V c (((cfg3.win 2).blk t).view.emb (ix1 d)) = bias V c _
    refine congrArg (bias V c) (funext fun a => Fin.ext ?_)
    match a with
    | ⟨0, _⟩ => show win3_2.index t (0 : Fin 1) * 64 + 1 * d.val = d.val; omega
  rw [h0, h1, h2]

/-- An index of the column is in point t's block iff each coordinate is in the block's range. -/
theorem mem_block (t : Fin cfg3.N) (i : S1000000x1.Idx) :
    i ∈ ((cfg3.win 3).blk t).view.set ↔ ∀ a : Fin 2, win3_3.index t a * S10000x1.size a ≤ (i a).val
      ∧ (i a).val < win3_3.index t a * S10000x1.size a + S10000x1.size a := by
  show i ∈ ((View.whole main_v80).slice (win3_3.rect t)).set ↔ _
  rw [View.set_slice_whole, Rect.mem_set_unit]
  exact Iff.rfl

/-- Every edge of the column is in the block of the point that is its number divided by 10000. -/
theorem cover (i : S1000000x1.Idx) :
    ∃ t : Fin cfg3.N, (cfg3.win 3).flush t = true ∧ i ∈ ((cfg3.win 3).blk t).view.set := by
  have hi0 : (i 0).val < 1000000 := (i 0).isLt
  have hi1 : (i 1).val < 1 := (i 1).isLt
  have hN : (i 0).val / 10000 < cfg3.N := by show _ < 100; omega
  refine ⟨⟨(i 0).val / 10000, hN⟩, flush3_3 _, ?_⟩
  obtain ⟨e0, e1, e2, e3, e4, e5, e6⟩ := index_maps ⟨(i 0).val / 10000, hN⟩
  rw [mem_block]
  intro a
  match a with
  | ⟨0, _⟩ =>
    show win3_3.index ⟨(i 0).val / 10000, hN⟩ (0 : Fin 2) * 10000 ≤ (i 0).val
      ∧ (i 0).val < win3_3.index ⟨(i 0).val / 10000, hN⟩ (0 : Fin 2) * 10000 + 10000
    rw [e5]; show (i 0).val / 10000 * 10000 ≤ (i 0).val ∧ (i 0).val < (i 0).val / 10000 * 10000 + 10000; omega
  | ⟨1, _⟩ =>
    show win3_3.index ⟨(i 0).val / 10000, hN⟩ (1 : Fin 2) * 1 ≤ (i 1).val
      ∧ (i 1).val < win3_3.index ⟨(i 0).val / 10000, hN⟩ (1 : Fin 2) * 1 + 1
    rw [e6]; omega

/-- After the region its result column is the whole column of edge scores of the arrays it found. -/
theorem final (c : Dev nD) : (dat3 V c).arrAt 3 cfg3.N = column V c :=
  (dat3 V c).arrAt_eq_of_cover 3 (column V c) (fun t _ => flushed_eq V c t) (cover)

/-- The score of an edge, with the three arrays the region found named. -/
theorem scoreOf_of (c : Dev nD) (e : Fin 1000000) (u v : FVec Ideal S1000000x64 .f32) (b : FVec Ideal S64 .f32)
    (hu : V c main_v70 = u) (hv : V c main_v79 = v) (hb : V c main_arg7 = b) :
    scoreOf V c e = ∑ d : Fin 64, (u (ix2 e d) + b (ix1 d)) * (v (ix2 e d) + b (ix1 d)) := by
  unfold scoreOf
  rw [show zu V c = u from hu, show zv V c = v from hv, show bias V c = b from hb]

end Cert.KernelIdeal.Scores

end
-- ==== Proof.Boundary.lean ====
/-
  What the idealized kernel's buffers hold at each boundary between its stretches of host operations and its regions.

  The program's contents are followed from the launch to the return: a stretch of host operations maps the contents
  through its operations, a region leaves in its result array one whole-array function of the arrays it found (the
  two matrix products, the bias-and-rectify map, the column of edge scores) and nothing else changed. Each stage is
  named by the reference's own stage of the same operations, so that at the end the kernel's result buffer is a
  function of the eight arguments that can be set against the reference's:
    * the self-loop edge lists, the degree normalisation and its per-edge product (before the first region);
    * the first product x · W1 (region 0); its rows gathered at the sources, scaled and added into the targets
      (the stretch after it); the bias added and rectified (region 1); the second product (region 2);
    * the second aggregation, and its rows gathered at the two ends of the scored edges (the stretch before the
      last region); the column of edge scores (region 3); the column read as a vector (the last reshape).
-/
import proofs.«166993_j22892175688228_2_alg».proof.Proof.Gen.KernelIdeal.Frame
import proofs.«166993_j22892175688228_2_alg».proof.Proof.RefRead
import proofs.«166993_j22892175688228_2_alg».proof.Proof.Product1
import proofs.«166993_j22892175688228_2_alg».proof.Proof.Rectify
import proofs.«166993_j22892175688228_2_alg».proof.Proof.Product2
import proofs.«166993_j22892175688228_2_alg».proof.Proof.Scores
import Idealize.ShloMosaic.PureOps.Ideal

set_option maxRecDepth 16384

noncomputable section

namespace Cert.KernelIdeal.Boundary

open Cert.KernelIdeal Cert.KernelIdeal.Gen Idealize.ShloMosaic Idealize.ShloMosaic.TcCoe Idealize.SL.Sem
open Idealize.ShloMosaic.StableHlo
open Cert.ReferenceIdeal.ReadP (val_main_v3 val_main_v6 val_main_v12 val_main_v15 val_main_cst_3 val_main_v16 val_main_v31
  val_main_v32 val_main_v45 val_main_v49 val_main_v50 val_main_v63 val_main_v75 val_main_v84)

/-- The outlined select (`jnp.where`) as a function of the contents it finds: its condition, its first branch and the
    scalar it spreads as the second. -/
theorem where_stage {F : FTy → Type} [FloatOps F] (X : Valuation τ sig (Elt F)) :
    StableHlo.after (hostOps0_1 (F := F)) X (Proc.devRef .tc main_v16)
      = (select (X (Proc.devRef .tc main_v12) : IVec S100000 1) (X (Proc.devRef .tc main_v15) : FVec F S100000 .f32)
          (broadcastInDim S100000 ![] bcast_S_S100000 (X (Proc.devRef .tc main_cst_3) : FVec F S_ .f32)) : FVec F S100000 .f32) := by
  after_results_simp
  generalize X (Proc.devRef .tc main_v12) = a12
  generalize X (Proc.devRef .tc main_v15) = a15
  generalize X (Proc.devRef .tc main_cst_3) = a0
  rfl

variable (m : (ℓ : Loc nD τ sig) → Buf (Elt Ideal) ℓ) (ρ : Dev nD → PrngReg)

/-! ## Before the first region: the edge lists with self-loops, the normalisation -/

theorem at1_v12 (c : Dev nD) : W1 m ρ c (Proc.devRef .tc main_v12) = val_main_v12 (F := Ideal) (m ((c : Thread nD τ).loc main_arg1)) := by
  show StableHlo.after hostOps0 (W0 m ρ c) (Proc.devRef .tc main_v12) = _
  after_results_simp <;> rfl

theorem at1_v15 (c : Dev nD) : W1 m ρ c (Proc.devRef .tc main_v15) = val_main_v15 (F := Ideal) (m ((c : Thread nD τ).loc main_arg1)) := by
  show StableHlo.after hostOps0 (W0 m ρ c) (Proc.devRef .tc main_v15) = _
  after_results_simp <;> rfl

theorem at1_cst3 (c : Dev nD) : W1 m ρ c (Proc.devRef .tc main_cst_3) = val_main_cst_3 (F := Ideal) := by
  show StableHlo.after hostOps0 (W0 m ρ c) (Proc.devRef .tc main_cst_3) = _
  after_results_simp <;> rfl

theorem at2_v16 (c : Dev nD) : W2 m ρ c (Proc.devRef .tc main_v16) = val_main_v16 (F := Ideal) (m ((c : Thread nD τ).loc main_arg1)) := by
  refine (where_stage (W1 m ρ c)).trans ?_
  rw [at1_v12 m ρ c, at1_v15 m ρ c, at1_cst3 m ρ c]
  rfl

theorem at2_v3 (c : Dev nD) : W2 m ρ c (Proc.devRef .tc main_v3) = val_main_v3 (F := Ideal) (m ((c : Thread nD τ).loc main_arg1)) := by
  show StableHlo.after hostOps0_1 (StableHlo.after hostOps0 (W0 m ρ c)) (Proc.devRef .tc main_v3) = _
  after_results_simp <;> rfl

theorem at2_v6 (c : Dev nD) : W2 m ρ c (Proc.devRef .tc main_v6) = val_main_v6 (F := Ideal) (m ((c : Thread nD τ).loc main_arg1)) := by
  show StableHlo.after hostOps0_1 (StableHlo.after hostOps0 (W0 m ρ c)) (Proc.devRef .tc main_v6) = _
  after_results_simp <;> rfl

theorem at3_v31 (c : Dev nD) : W3 m ρ c (Proc.devRef .tc main_v31) = val_main_v31 (F := Ideal) (m ((c : Thread nD τ).loc main_arg1)) := by
  show StableHlo.after hostOps0_2 (W2 m ρ c) (Proc.devRef .tc main_v31) = _
  have h16 := at2_v16 m ρ c
  have h3 := at2_v3 m ρ c
  have h6 := at2_v6 m ρ c
  generalize W2 m ρ c = X at h16 h3 h6 ⊢
  after_results_simp
  rw [h16, h3, h6]
  rfl

theorem at3_v3 (c : Dev nD) : W3 m ρ c (Proc.devRef .tc main_v3) = val_main_v3 (F := Ideal) (m ((c : Thread nD τ).loc main_arg1)) := by
  show StableHlo.after hostOps0_2 (StableHlo.after hostOps0_1 (StableHlo.after hostOps0 (W0 m ρ c))) (Proc.devRef .tc main_v3) = _
  after_results_simp <;> rfl

theorem at3_v6 (c : Dev nD) : W3 m ρ c (Proc.devRef .tc main_v6) = val_main_v6 (F := Ideal) (m ((c : Thread nD τ).loc main_arg1)) := by
  show StableHlo.after hostOps0_2 (StableHlo.after hostOps0_1 (StableHlo.after hostOps0 (W0 m ρ c))) (Proc.devRef .tc main_v6) = _
  after_results_simp <;> rfl

theorem at3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl

theorem at3_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl

theorem at3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl

theorem at3_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp <;> rfl

theorem at3_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl

theorem at3_arg6 (c : Dev nD) : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results_simp <;> rfl

theorem at3_arg7 (c : Dev nD) : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results_simp <;> rfl

/-! ## The first product -/

theorem at4_v32 (c : Dev nD) : W4 m ρ c (Proc.devRef .tc main_v32) = val_main_v32 (F := Ideal) (m ((c : Thread nD τ).loc main_arg0)) (m ((c : Thread nD τ).loc main_arg4)) := by
  refine ((W4_arr m ρ c 2).trans (Product1.final (V3 m ρ) c)).trans ?_
  show val_main_v32 (F := Ideal) (W3 m ρ c (Proc.devRef .tc main_arg0)) (W3 m ρ c (Proc.devRef .tc main_arg4)) = _
  rw [at3_arg0 m ρ c, at3_arg4 m ρ c]

theorem at4_v3 (c : Dev nD) : W4 m ρ c (Proc.devRef .tc main_v3) = val_main_v3 (F := Ideal) (m ((c : Thread nD τ).loc main_arg1)) :=
  (W4_of_ne m ρ c main_v3 (by decide)).trans (at3_v3 m ρ c)
theorem at4_v6 (c : Dev nD) : W4 m ρ c (Proc.devRef .tc main_v6) = val_main_v6 (F := Ideal) (m ((c : Thread nD τ).loc main_arg1)) :=
  (W4_of_ne m ρ c main_v6 (by decide)).trans (at3_v6 m ρ c)
theorem at4_v31 (c : Dev nD) : W4 m ρ c (Proc.devRef .tc main_v31) = val_main_v31 (F := Ideal) (m ((c : Thread nD τ).loc main_arg1)) :=
  (W4_of_ne m ρ c main_v31 (by decide)).trans (at3_v31 m ρ c)
theorem at4_arg2 (c : Dev nD) : W4 m ρ c (Proc.devRef .tc main_arg2) = m ((c : Thread nD τ).loc main_arg2) :=
  (W4_of_ne m ρ c main_arg2 (by decide)).trans (at3_arg2 m ρ c)
theorem at4_arg3 (c : Dev nD) : W4 m ρ c (Proc.devRef .tc main_arg3) = m ((c : Thread nD τ).loc main_arg3) :=
  (W4_of_ne m ρ c main_arg3 (by decide)).trans (at3_arg3 m ρ c)
theorem at4_arg5 (c : Dev nD) : W4 m ρ c (Proc.devRef .tc main_arg5) = m ((c : Thread nD τ).loc main_arg5) :=
  (W4_of_ne m ρ c main_arg5 (by decide)).trans (at3_arg5 m ρ c)
theorem at4_arg6 (c : Dev nD) : W4 m ρ c (Proc.devRef .tc main_arg6) = m ((c : Thread nD τ).loc main_arg6) :=
  (W4_of_ne m ρ c main_arg6 (by decide)).trans (at3_arg6 m ρ c)
theorem at4_arg7 (c : Dev nD) : W4 m ρ c (Proc.devRef .tc main_arg7) = m ((c : Thread nD τ).loc main_arg7) :=
  (W4_of_ne m ρ c main_arg7 (by decide)).trans (at3_arg7 m ρ c)

/-! ## The first aggregation: rows gathered at the sources, scaled, added into the targets -/

theorem at5_v45 (c : Dev nD) :
    W5 m ρ c (Proc.devRef .tc main_v45) = val_main_v45 (F := Ideal) (m ((c : Thread nD τ).loc main_arg0)) (m ((c : Thread nD τ).loc main_arg1)) (m ((c : Thread nD τ).loc main_arg4)) := by
  show StableHlo.after hostOps1 (W4 m ρ c) (Proc.devRef .tc main_v45) = _
  have h32 := at4_v32 m ρ c
  have h3 := at4_v3 m ρ c
  have h6 := at4_v6 m ρ c
  have h31 := at4_v31 m ρ c
  generalize W4 m ρ c = X at h32 h3 h6 h31 ⊢
  after_results_simp
  rw [h32, h3, h6, h31]
  rfl

theorem at5_v3 (c : Dev nD) : W5 m ρ c (Proc.devRef .tc main_v3) = val_main_v3 (F := Ideal) (m ((c : Thread nD τ).loc main_arg1)) := by
  show StableHlo.after hostOps1 (W4 m ρ c) (Proc.devRef .tc main_v3) = _
  have h := at4_v3 m ρ c
  generalize W4 m ρ c = X at h ⊢
  after_results_simp
  exact h
theorem at5_v6 (c : Dev nD) : W5 m ρ c (Proc.devRef .tc main_v6) = val_main_v6 (F := Ideal) (m ((c : Thread nD τ).loc main_arg1)) := by
  show StableHlo.after hostOps1 (W4 m ρ c) (Proc.devRef .tc main_v6) = _
  have h := at4_v6 m ρ c
  generalize W4 m ρ c = X at h ⊢
  after_results_simp
  exact h
theorem at5_v31 (c : Dev nD) : W5 m ρ c (Proc.devRef .tc main_v31) = val_main_v31 (F := Ideal) (m ((c : Thread nD τ).loc main_arg1)) := by
  show StableHlo.after hostOps1 (W4 m ρ c) (Proc.devRef .tc main_v31) = _
  have h := at4_v31 m ρ c
  generalize W4 m ρ c = X at h ⊢
  after_results_simp
  exact h
theorem at5_arg2 (c : Dev nD) : W5 m ρ c (Proc.devRef .tc main_arg2) = m ((c : Thread nD τ).loc main_arg2) := by
  show StableHlo.after hostOps1 (W4 m ρ c) (Proc.devRef .tc main_arg2) = _
  have h := at4_arg2 m ρ c
  generalize W4 m ρ c = X at h ⊢
  after_results_simp
  exact h
theorem at5_arg3 (c : Dev nD) : W5 m ρ c (Proc.devRef .tc main_arg3) = m ((c : Thread nD τ).loc main_arg3) := by
  show StableHlo.after hostOps1 (W4 m ρ c) (Proc.devRef .tc main_arg3) = _
  have h := at4_arg3 m ρ c
  generalize W4 m ρ c = X at h ⊢
  after_results_simp
  exact h
theorem at5_arg5 (c : Dev nD) : W5 m ρ c (Proc.devRef .tc main_arg5) = m ((c : Thread nD τ).loc main_arg5) := by
  show StableHlo.after hostOps1 (W4 m ρ c) (Proc.devRef .tc main_arg5) = _
  have h := at4_arg5 m ρ c
  generalize W4 m ρ c = X at h ⊢
  after_results_simp
  exact h
theorem at5_arg6 (c : Dev nD) : W5 m ρ c (Proc.devRef .tc main_arg6) = m ((c : Thread nD τ).loc main_arg6) := by
  show StableHlo.after hostOps1 (W4 m ρ c) (Proc.devRef .tc main_arg6) = _
  have h := at4_arg6 m ρ c
  generalize W4 m ρ c = X at h ⊢
  after_results_simp
  exact h
theorem at5_arg7 (c : Dev nD) : W5 m ρ c (Proc.devRef .tc main_arg7) = m ((c : Thread nD τ).loc main_arg7) := by
  show StableHlo.after hostOps1 (W4 m ρ c) (Proc.devRef .tc main_arg7) = _
  have h := at4_arg7 m ρ c
  generalize W4 m ρ c = X at h ⊢
  after_results_simp
  exact h

/-! ## The bias added and rectified -/

theorem at6_v46 (c : Dev nD) :
    W6 m ρ c (Proc.devRef .tc main_v46) = val_main_v49 (F := Ideal) (m ((c : Thread nD τ).loc main_arg0)) (m ((c : Thread nD τ).loc main_arg1)) (m ((c : Thread nD τ).loc main_arg4)) (m ((c : Thread nD τ).loc main_arg5)) := by
  refine ((W6_arr m ρ c 2).trans (Rectify.final_of (V5 m ρ) c _ _ (at5_v45 m ρ c) (at5_arg5 m ρ c))).trans ?_
  rfl

theorem at6_v3 (c : Dev nD) : W6 m ρ c (Proc.devRef .tc main_v3) = val_main_v3 (F := Ideal) (m ((c : Thread nD τ).loc main_arg1)) :=
  (W6_of_ne m ρ c main_v3 (by decide)).trans (at5_v3 m ρ c)
theorem at6_v6 (c : Dev nD) : W6 m ρ c (Proc.devRef .tc main_v6) = val_main_v6 (F := Ideal) (m ((c : Thread nD τ).loc main_arg1)) :=
  (W6_of_ne m ρ c main_v6 (by decide)).trans (at5_v6 m ρ c)
theorem at6_v31 (c : Dev nD) : W6 m ρ c (Proc.devRef .tc main_v31) = val_main_v31 (F := Ideal) (m ((c : Thread nD τ).loc main_arg1)) :=
  (W6_of_ne m ρ c main_v31 (by decide)).trans (at5_v31 m ρ c)
theorem at6_arg2 (c : Dev nD) : W6 m ρ c (Proc.devRef .tc main_arg2) = m ((c : Thread nD τ).loc main_arg2) :=
  (W6_of_ne m ρ c main_arg2 (by decide)).trans (at5_arg2 m ρ c)
theorem at6_arg3 (c : Dev nD) : W6 m ρ c (Proc.devRef .tc main_arg3) = m ((c : Thread nD τ).loc main_arg3) :=
  (W6_of_ne m ρ c main_arg3 (by decide)).trans (at5_arg3 m ρ c)
theorem at6_arg6 (c : Dev nD) : W6 m ρ c (Proc.devRef .tc main_arg6) = m ((c : Thread nD τ).loc main_arg6) :=
  (W6_of_ne m ρ c main_arg6 (by decide)).trans (at5_arg6 m ρ c)
theorem at6_arg7 (c : Dev nD) : W6 m ρ c (Proc.devRef .tc main_arg7) = m ((c : Thread nD τ).loc main_arg7) :=
  (W6_of_ne m ρ c main_arg7 (by decide)).trans (at5_arg7 m ρ c)

/-! ## The second product -/

theorem at7_v47 (c : Dev nD) :
    W7 m ρ c (Proc.devRef .tc main_v47) = val_main_v50 (F := Ideal) (m ((c : Thread nD τ).loc main_arg0)) (m ((c : Thread nD τ).loc main_arg1)) (m ((c : Thread nD τ).loc main_arg4)) (m ((c : Thread nD τ).loc main_arg5)) (m ((c : Thread nD τ).loc main_arg6)) := by
  refine ((W7_arr m ρ c 2).trans (Product2.final_of (V6 m ρ) c _ _ (at6_v46 m ρ c) (at6_arg6 m ρ c))).trans ?_
  rfl

theorem at7_v3 (c : Dev nD) : W7 m ρ c (Proc.devRef .tc main_v3) = val_main_v3 (F := Ideal) (m ((c : Thread nD τ).loc main_arg1)) :=
  (W7_of_ne m ρ c main_v3 (by decide)).trans (at6_v3 m ρ c)
theorem at7_v6 (c : Dev nD) : W7 m ρ c (Proc.devRef .tc main_v6) = val_main_v6 (F := Ideal) (m ((c : Thread nD τ).loc main_arg1)) :=
  (W7_of_ne m ρ c main_v6 (by decide)).trans (at6_v6 m ρ c)
theorem at7_v31 (c : Dev nD) : W7 m ρ c (Proc.devRef .tc main_v31) = val_main_v31 (F := Ideal) (m ((c : Thread nD τ).loc main_arg1)) :=
  (W7_of_ne m ρ c main_v31 (by decide)).trans (at6_v31 m ρ c)
theorem at7_arg2 (c : Dev nD) : W7 m ρ c (Proc.devRef .tc main_arg2) = m ((c : Thread nD τ).loc main_arg2) :=
  (W7_of_ne m ρ c main_arg2 (by decide)).trans (at6_arg2 m ρ c)
theorem at7_arg3 (c : Dev nD) : W7 m ρ c (Proc.devRef .tc main_arg3) = m ((c : Thread nD τ).loc main_arg3) :=
  (W7_of_ne m ρ c main_arg3 (by decide)).trans (at6_arg3 m ρ c)
theorem at7_arg7 (c : Dev nD) : W7 m ρ c (Proc.devRef .tc main_arg7) = m ((c : Thread nD τ).loc main_arg7) :=
  (W7_of_ne m ρ c main_arg7 (by decide)).trans (at6_arg7 m ρ c)

/-! ## The second aggregation, and its rows gathered at the two ends of the scored edges -/

theorem at8_v70 (c : Dev nD) :
    W8 m ρ c (Proc.devRef .tc main_v70)
      = Host.gather Cert.ReferenceIdeal.gather_S100000x64_S1000000x1_S1000000x64_1_0_n_n_0_1_164 (val_main_v63 (F := Ideal) (m ((c : Thread nD τ).loc main_arg0)) (m ((c : Thread nD τ).loc main_arg1)) (m ((c : Thread nD τ).loc main_arg4)) (m ((c : Thread nD τ).loc main_arg5)) (m ((c : Thread nD τ).loc main_arg6)))
          (val_main_v75 (F := Ideal) (m ((c : Thread nD τ).loc main_arg2)) (m ((c : Thread nD τ).loc main_arg3))) := by
  rw [← at7_arg2 m ρ c, ← at7_arg3 m ρ c]
  show StableHlo.after hostOps3 (W7 m ρ c) (Proc.devRef .tc main_v70) = _
  have h47 := at7_v47 m ρ c
  have h3 := at7_v3 m ρ c
  have h6 := at7_v6 m ρ c
  have h31 := at7_v31 m ρ c
  generalize W7 m ρ c = X at h47 h3 h6 h31 ⊢
  after_results_simp
  rw [h47, h3, h6, h31]
  rfl

theorem at8_v79 (c : Dev nD) :
    W8 m ρ c (Proc.devRef .tc main_v79)
      = Host.gather Cert.ReferenceIdeal.gather_S100000x64_S1000000x1_S1000000x64_1_0_n_n_0_1_164 (val_main_v63 (F := Ideal) (m ((c : Thread nD τ).loc main_arg0)) (m ((c : Thread nD τ).loc main_arg1)) (m ((c : Thread nD τ).loc main_arg4)) (m ((c : Thread nD τ).loc main_arg5)) (m ((c : Thread nD τ).loc main_arg6)))
          (val_main_v84 (F := Ideal) (m ((c : Thread nD τ).loc main_arg2)) (m ((c : Thread nD τ).loc main_arg3))) := by
  rw [← at7_arg2 m ρ c, ← at7_arg3 m ρ c]
  show StableHlo.after hostOps3 (W7 m ρ c) (Proc.devRef .tc main_v79) = _
  have h47 := at7_v47 m ρ c
  have h3 := at7_v3 m ρ c
  have h6 := at7_v6 m ρ c
  have h31 := at7_v31 m ρ c
  generalize W7 m ρ c = X at h47 h3 h6 h31 ⊢
  after_results_simp
  rw [h47, h3, h6, h31]
  rfl

theorem at8_arg7 (c : Dev nD) : W8 m ρ c (Proc.devRef .tc main_arg7) = m ((c : Thread nD τ).loc main_arg7) := by
  show StableHlo.after hostOps3 (W7 m ρ c) (Proc.devRef .tc main_arg7) = _
  have h := at7_arg7 m ρ c
  generalize W7 m ρ c = X at h ⊢
  after_results_simp
  exact h

/-! ## The column of edge scores, and the result -/

theorem at9_v80 (c : Dev nD) : W9 m ρ c (Proc.devRef .tc main_v80) = Scores.column (V8 m ρ) c :=
  (W9_arr m ρ c 3).trans (Scores.final (V8 m ρ) c)

/-- The result buffer at the return: the column of edge scores read as a vector. -/
theorem at10_v81 (c : Dev nD) (e : Fin 1000000) :
    (W10 m ρ c (Proc.devRef .tc main_v81) : FVec Ideal S1000000 .f32) (ValueIdx.ix1 e) = Scores.scoreOf (V8 m ρ) c e := by
  show (StableHlo.after hostOps4 (W9 m ρ c) (Proc.devRef .tc main_v81) : FVec Ideal S1000000 .f32) (ValueIdx.ix1 e) = _
  have h80 := at9_v80 m ρ c
  generalize W9 m ρ c = X at h80 ⊢
  after_results_simp
  rw [h80]
  refine (shapeCast_apply _ _ (ValueIdx.ix1 e) (ValueIdx.ix2 e (0 : Fin 1)) (by
    rw [Shape.rowMajor_val_two, Shape.rowMajor_val_one]
    show e.val * 1 + 0 = e.val
    omega)).trans ?_
  rfl

end Cert.KernelIdeal.Boundary

end
-- ==== Proof.LibRowScatter.lean ====
/-
  Rows of a matrix moved by an index column, read at an index.

  A graph layer gathers the rows of a node table `[N, C]` at one index per edge (`[E, 1]`, the edge's source) and
  adds the gathered rows `[E, C]` into a node table at another index per edge (the edge's target). This file reads
  both operations at one entry, for any extents `N`, `E`, `C`:

  * `gather_rows_apply`: entry `(e, c)` of the gathered table is the operand's entry `(r, c)`, where `r` is the
    edge's index read as a signed integer and clamped into `[0, N - 1]`; `gather_vec_apply` is the same for a
    vector `[N]` gathered into `[E]`;
  * `scatterAdd_rows_apply`: over the extended reals, entry `(n, c)` of the accumulated table is the operand's
    entry plus the sum, over the edges whose index read as a signed integer IS `n`, of the update's entry `(e, c)`.
    An edge whose index is negative or at least `N` contributes to no row.
    (`host_scatterAdd_rows_apply` is the same statement for the host operation `Host.scatterAdd` at the ideal instance.)
  * `clamp_of_inRange` / `wrapNeg_of_nonneg`: an index already in `[0, N)` is left alone both by the clamp and by
    the normalisation of negative indices `select (v < 0) (v + N) v` that precedes a gather.
-/
import Idealize.ShloMosaic.Lib.ValueIdx
import Idealize.ShloMosaic.Lib.Affine

noncomputable section

open scoped BigOperators

namespace Idealize.ShloMosaic.RowScatter

open Idealize.ShloMosaic Idealize.ShloMosaic.ValueIdx

/-! ## Two rank-2 indices are equal when their coordinates are -/

theorem ix2_inj {n0 n1 : Nat} {a a' : Fin n0} {b b' : Fin n1} : ix2 a b = ix2 a' b' ↔ a = a' ∧ b = b' := by
  constructor
  · intro h
    exact ⟨congrFun h 0, congrFun h 1⟩
  · rintro ⟨rfl, rfl⟩; rfl

/-! ## Gathering rows -/

/-- The dimension numbers of `x[idx]` for a table `x : [N, C]` and one row index per edge, `idx : [E, 1]`:
    the row axis is collapsed and indexed, the column axis is the slice. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entry `(e, c)` of the gathered rows: the table's row at edge `e`'s index, read signed and clamped into
    `[0, N - 1]`, at column `c`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c)
      = x (ix2 ⟨min (idx (ix2 e (0 : Fin 1))).toInt.toNat (N - 1), by omega⟩ c) := by
  unfold Host.gather
  refine congrArg x (funext fun a => Fin.ext ?_)
  show (rowGather N E C wf).start (ix2 e c) idx a + (rowGather N E C wf).batchCoord (ix2 e c) a
      + (rowGather N E C wf).offCoord (ix2 e c) a = _
  rw [GatherDims.batchCoord_eq_zero _ _ _ List.not_mem_nil]
  revert a
  refine Fin.forall_fin_two.mpr ⟨?_, ?_⟩
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  · unfold GatherDims.start
    rw [dif_neg (show ¬ (1 : Fin 2) ∈ (rowGather N E C wf).startIndexMap from
      fun h => absurd (List.mem_singleton.mp h) (show (1 : Fin 2) ≠ 0 by decide))]
    simp only [Nat.zero_add, Nat.add_zero]
    unfold GatherDims.offCoord
    rw [dif_pos (show (1 : Fin 2) ∈ (rowGather N E C wf).sKept from
      (GatherDims.mem_sKept _ _).mpr ⟨fun h => absurd (List.mem_singleton.mp h) (show (1 : Fin 2) ≠ 0 by decide), List.not_mem_nil⟩)]
    rfl

/-- The dimension numbers of `v[idx]` for a vector `v : [N]` and one index per edge, `idx : [E, 1]`. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gathered vector: the vector at edge `e`'s index, read signed and clamped into `[0, N - 1]`. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e)
      = x (ix1 ⟨min (idx (ix2 e (0 : Fin 1))).toInt.toNat (N - 1), by omega⟩) := by
  unfold Host.gather
  refine congrArg x (funext fun a => Fin.ext ?_)
  obtain rfl : a = 0 := Subsingleton.elim _ _
  show (vecGather N E wf).start (ix1 e) idx 0 + (vecGather N E wf).batchCoord (ix1 e) 0
      + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Adding rows into a table -/

/-- The dimension numbers of `x.at[idx].add(u)` for a table `x : [N, C]`, one row index per edge `idx : [E, 1]`
    and one row of updates per edge `u : [E, C]`. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An operand axis receives a window axis of the updates exactly when it is not an inserted one. -/
theorem mem_sKept {s si u : Shape} (d : ScatterDims s si u) (a : Fin s.rank) : a ∈ d.sKept ↔ a ∉ d.insertedWindowDims := by
  simp [ScatterDims.sKept, Shape.kept, List.mem_filter, List.mem_finRange]

/-- Where update entry `(e, c)` lands: row `t`, column `c`, when edge `e`'s index read signed is a row `t` of the
    table; nowhere when it is negative or at least `N`. -/
theorem rowScatter_resultIdx? {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter N E C wf).resultIdx? (ix2 e c) idx
      = if h : 0 ≤ (idx (ix2 e (0 : Fin 1))).toInt ∧ (idx (ix2 e (0 : Fin 1))).toInt < N then
          some (ix2 ⟨(idx (ix2 e (0 : Fin 1))).toInt.toNat, by omega⟩ c)
        else none := by
  have hsi : (rowScatter N E C wf).siIdx (ix2 e c) ⟨List.idxOf (0 : Fin 2) (rowScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have hs0 : (rowScatter N E C wf).start (ix2 e c) idx 0 = (idx (ix2 e (0 : Fin 1))).toInt := by
    unfold ScatterDims.start
    rw [dif_pos (show (0 : Fin 2) ∈ (rowScatter N E C wf).scatterDimsToOperandDims from List.mem_singleton.mpr rfl), hsi]
  have hs1 : (rowScatter N E C wf).start (ix2 e c) idx 1 = 0 := by
    unfold ScatterDims.start
    rw [dif_neg (show ¬ (1 : Fin 2) ∈ (rowScatter N E C wf).scatterDimsToOperandDims from
      fun h => absurd (List.mem_singleton.mp h) (show (1 : Fin 2) ≠ 0 by decide))]
  have hw0 : (rowScatter N E C wf).window (ix2 e c) 0 = 0 := by
    unfold ScatterDims.window
    rw [dif_neg (show ¬ (0 : Fin 2) ∈ (rowScatter N E C wf).sKept from
      fun h => (mem_sKept _ _).mp h (List.mem_singleton.mpr rfl))]
  have hw1 : (rowScatter N E C wf).window (ix2 e c) 1 = c.val := by
    unfold ScatterDims.window
    rw [dif_pos (show (1 : Fin 2) ∈ (rowScatter N E C wf).sKept from
      (mem_sKept _ _).mpr fun h => absurd (List.mem_singleton.mp h) (show (1 : Fin 2) ≠ 0 by decide))]
    rfl
  unfold ScatterDims.resultIdx?
  by_cases h : 0 ≤ (idx (ix2 e (0 : Fin 1))).toInt ∧ (idx (ix2 e (0 : Fin 1))).toInt < N
  · have hall : ∀ a : Fin 2, 0 ≤ (rowScatter N E C wf).start (ix2 e c) idx a + (rowScatter N E C wf).window (ix2 e c) a
        ∧ (rowScatter N E C wf).start (ix2 e c) idx a + (rowScatter N E C wf).window (ix2 e c) a
          < ((⟨2, ![N, C]⟩ : Shape).size a : ℤ) := by
      refine Fin.forall_fin_two.mpr ⟨?_, ?_⟩
      · rw [hs0, hw0]
        refine ⟨by omega, ?_⟩
        show (idx (ix2 e (0 : Fin 1))).toInt + ((0 : ℕ) : ℤ) < (N : ℤ)
        omega
      · rw [hs1, hw1]
        refine ⟨by omega, ?_⟩
        show (0 : ℤ) + (c.val : ℤ) < (C : ℤ)
        have := c.isLt; omega
    rw [dif_pos hall, dif_pos h]
    refine congrArg some (funext fun a => Fin.ext ?_)
    match a with
    | ⟨0, _⟩ =>
      show ((rowScatter N E C wf).start (ix2 e c) idx 0 + (rowScatter N E C wf).window (ix2 e c) 0).toNat = _
      rw [hs0, hw0]; simp
    | ⟨1, _⟩ =>
      show ((rowScatter N E C wf).start (ix2 e c) idx 1 + (rowScatter N E C wf).window (ix2 e c) 1).toNat = _
      rw [hs1, hw1]; simp
  · rw [dif_neg h, dif_neg]
    intro hall
    have h0 := hall 0
    rw [hs0, hw0] at h0
    apply h
    refine ⟨by omega, ?_⟩
    have h02 : (idx (ix2 e (0 : Fin 1))).toInt + ((0 : ℕ) : ℤ) < (N : ℤ) := h0.2
    omega

/-- Entry `(n, c)` of a table after rows are added into it, over the extended reals: the entry before, plus the
    sum over the edges whose index read signed is `n` of the update's entry `(e, c)`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatter N E C wf) x idx upd (ix2 n c)
      = x (ix2 n c)
        + ∑ e ∈ Finset.univ.filter (fun e : Fin E => (idx (ix2 e (0 : Fin 1))).toInt = (n.val : ℤ)), upd (ix2 e c) := by
  unfold Ideal.hostScatterAdd
  refine congrArg (x (ix2 n c) + ·) ?_
  rw [Finset.sum_filter, Finset.sum_filter, sum_idx2]
  refine Finset.sum_congr rfl fun e _ => ?_
  have hiff : ∀ c' : Fin C, ((rowScatter N E C wf).resultIdx? (ix2 e c') idx = some (ix2 n c))
      ↔ ((idx (ix2 e (0 : Fin 1))).toInt = (n.val : ℤ) ∧ c' = c) := by
    intro c'
    rw [rowScatter_resultIdx?]
    by_cases h : 0 ≤ (idx (ix2 e (0 : Fin 1))).toInt ∧ (idx (ix2 e (0 : Fin 1))).toInt < N
    · rw [dif_pos h, Option.some_inj, ix2_inj]
      constructor
      · rintro ⟨h1, h2⟩
        refine ⟨?_, h2⟩
        have := congrArg Fin.val h1
        simp only at this
        omega
      · rintro ⟨h1, h2⟩
        refine ⟨Fin.ext ?_, h2⟩
        show (idx (ix2 e (0 : Fin 1))).toInt.toNat = n.val
        omega
    · rw [dif_neg h]
      constructor
      · intro hh; exact absurd hh (by simp)
      · rintro ⟨h1, _⟩
        exfalso; apply h
        have := n.isLt
        omega
  by_cases ht : (idx (ix2 e (0 : Fin 1))).toInt = (n.val : ℤ)
  · rw [if_pos ht]
    rw [Finset.sum_eq_single c]
    · rw [if_pos ((hiff c).mpr ⟨ht, rfl⟩)]
    · intro c' _ hne
      rw [if_neg (fun hh => hne ((hiff c').mp hh).2)]
    · intro hc; exact absurd (Finset.mem_univ c) hc
  · rw [if_neg ht]
    refine Finset.sum_eq_zero fun c' _ => ?_
    rw [if_neg (fun hh => ht ((hiff c').mp hh).1)]

/-- The same for the host's accumulating scatter at the ideal instance, which is that sum. -/
theorem host_scatterAdd_rows_apply {N E C w : Nat}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w)
    (upd : FVec Ideal ⟨2, ![E, C]⟩ .f32) (n : Fin N) (c : Fin C) :
    Host.scatterAdd (rowScatter N E C wf) x idx upd (ix2 n c)
      = x (ix2 n c)
        + ∑ e ∈ Finset.univ.filter (fun e : Fin E => (idx (ix2 e (0 : Fin 1))).toInt = (n.val : ℤ)), upd (ix2 e c) :=
  scatterAdd_rows_apply wf x idx upd n c

/-! ## An index already in range -/

/-- The clamp into `[0, N - 1]` leaves an index in `[0, N)` alone. -/
theorem clamp_of_inRange {w N : Nat} (v : BitVec w) (h0 : 0 ≤ v.toInt) (hN : v.toInt < N) :
    min v.toInt.toNat (N - 1) = v.toInt.toNat := by
  omega

/-- The normalisation of a possibly negative index, `select (v < 0) (v + N) v` one element at a time, leaves a
    non-negative index alone. -/
theorem wrapNeg_of_nonneg {w : Nat} (v z nn : BitVec w) (hz : z.toInt = 0) (h0 : 0 ≤ v.toInt) :
    Scalar.select (IntOp.cmpi .slt v z) (IntOp.addi v nn) v = v := by
  unfold Scalar.select
  rw [if_neg]
  intro h
  have := IntOp.cmpi_slt.mp h
  omega

end Idealize.ShloMosaic.RowScatter

end
-- ==== Proof.EdgeScore.lean ====
/-
  The reference's edge score, entry by entry.

  The reference adds the second layer's bias to the aggregated node features z = agg + b (the bias spread down the
  rows), gathers the rows of z at the two ends of every edge and sums the products of the two gathered rows over
  the 64 features. Gathering a row of agg + b is gathering the row of agg and adding b: the gathered row is row r
  of the table for one r (the edge's index, clamped into the table), whatever the table, and the spread bias does
  not depend on the row. So the score of edge e is
      ∑ d < 64, (agg[u e] d + b d) · (agg[v e] d + b d),
  the sum starting from the zero initial value.
-/
import proofs.«166993_j22892175688228_2_alg».proof.Proof.RefRead
import proofs.«166993_j22892175688228_2_alg».proof.Proof.LibRowScatter
import Idealize.ShloMosaic.PureOps.Ideal.Laws
import Idealize.ShloMosaic.Lib.ValueIdx

set_option maxRecDepth 16384

noncomputable section

open scoped BigOperators

namespace Cert.ReferenceIdeal.EdgeScore

open Cert.ReferenceIdeal Cert.ReferenceIdeal.ReadP Idealize.ShloMosaic Idealize.ShloMosaic.ValueIdx

/-- The gather of one table row per edge, as the program spells it. -/
abbrev rowsAt := gather_S100000x64_S1000000x1_S1000000x64_1_0_n_n_0_1_164

/-- Gathering rows of a table with a bias spread down its rows is gathering the rows and adding the bias. -/
theorem gather_add_bias (x : FVec Ideal S100000x64 .f32) (b : FVec Ideal S64 .f32) (idx : IVec S1000000x1 32)
    (e : Fin 1000000) (k : Fin 64) :
    Host.gather rowsAt (addf x (val_main_v65 (F := Ideal) b)) idx (ix2 e k)
      = Host.gather rowsAt x idx (ix2 e k) + b (ix1 k) := by
  have hg : rowsAt = RowScatter.rowGather 100000 1000000 64 Facts₀.gather_S100000x64_S1000000x1_S1000000x64_1_0_n_n_0_1_164_wf := rfl
  rw [hg, RowScatter.gather_rows_apply (by decide), RowScatter.gather_rows_apply (by decide)]
  show x _ + val_main_v65 (F := Ideal) b _ = _
  rw [val_main_v65_apply, val_main_v64_apply]
  exact congrArg (fun j => x _ + b j) (funext fun a => Fin.ext (by match a with | ⟨0, _⟩ => rfl))

/-- The reference's result at edge e is the inner product of the two gathered rows of the aggregated features,
    each with the bias added. -/
theorem score_eq (x0 : (⟨S100000x256, .f32⟩ : BufTy).Contents (Elt Ideal)) (x1 : (⟨S2x1600000, .i32⟩ : BufTy).Contents (Elt Ideal)) (x2 x3 : (⟨S2x500000, .i32⟩ : BufTy).Contents (Elt Ideal)) (x4 : (⟨S256x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (e : Fin 1000000) :
    ∑ d : Fin 64, (Host.gather rowsAt (val_main_v63 (F := Ideal) x0 x1 x4 x5 x6) (val_main_v75 (F := Ideal) x2 x3) (ix2 e d) + x7 (ix1 d))
        * (Host.gather rowsAt (val_main_v63 (F := Ideal) x0 x1 x4 x5 x6) (val_main_v84 (F := Ideal) x2 x3) (ix2 e d) + x7 (ix1 d))
      = val_main_v87 (F := Ideal) x0 x1 x2 x3 x4 x5 x6 x7 (ix1 e) := by
  refine Eq.trans ?_ (val_main_v87_apply x0 x1 x2 x3 x4 x5 x6 x7 (ix1 e)).symm
  refine Eq.trans ?_ (congrArg (· + _) (Ideal.ofBits_zero_f32).symm)
  refine Eq.trans ?_ (zero_add _).symm
  refine Finset.sum_congr rfl fun d _ => ?_
  have hi : idx_main_v87 (ix1 e) d = ix2 e d :=
    funext fun a => Fin.ext (by match a with | ⟨0, _⟩ => rfl | ⟨1, _⟩ => rfl)
  rw [hi, val_main_v86_apply]
  unfold val_main_v76 val_main_v85 val_main_v66
  rw [gather_add_bias, gather_add_bias]
  rfl

end Cert.ReferenceIdeal.EdgeScore

end
-- ==== Proof.KernelValue.lean ====
/-
  The idealized kernel's result is the reference's function of the arguments.

  At the return the kernel's result buffer holds, at edge e, the inner product over the 64 features of the two
  gathered rows of the second aggregation, each with the second layer's bias added — the last region adds the
  bias after the gather. The reference adds the bias to the aggregated table first and gathers afterwards; a
  gathered row of (table + bias spread down the rows) is the gathered row plus the bias, so the two agree entry by
  entry (no finiteness is needed: the two sides are the same sums of the same products).
-/
import proofs.«166993_j22892175688228_2_alg».proof.Proof.Boundary
import proofs.«166993_j22892175688228_2_alg».proof.Proof.EdgeScore

set_option maxRecDepth 16384

noncomputable section

open scoped BigOperators

namespace Cert.KernelIdeal.Result

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The contents of the result buffer at the return, as the reference's last stage of the launch arguments. -/
theorem result_eq (c : Dev nD) :
    W10 m ρ c (Proc.devRef .tc main_v81)
      = Cert.ReferenceIdeal.ReadP.val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext i
  obtain ⟨e, rfl⟩ : ∃ e : Fin 1000000, i = ix1 e := ⟨i 0, eq_ix1 i⟩
  refine (Boundary.at10_v81 m ρ c e).trans ?_
  refine (Scores.scoreOf_of (V8 m ρ) c e _ _ _ (Boundary.at8_v70 m ρ c) (Boundary.at8_v79 m ρ c)
    (Boundary.at8_arg7 m ρ c)).trans ?_
  exact Cert.ReferenceIdeal.EdgeScore.score_eq _ _ _ _ _ _ _ _ e

end Cert.KernelIdeal.Result

end
-- ==== Proof.lean ====
/-
  The certificate of the graph link-prediction kernel against its jnp reference, over the extended reals.

  Both programs build the same edge lists with self-loops, the same symmetric degree normalisation and the same two
  graph-convolution aggregations (gather the rows at the sources, scale, add into the targets) with the same host
  operations. They differ in three dense stages, which the kernel runs as pipelined regions over row blocks — the
  two matrix products x · W1 and h · W2 (the casts to a narrower float format are the identity on the extended
  reals, and a block of rows of a product is the product of the block of rows) and h = max (agg + b1) 0 — and in
  the last stage, where the kernel gathers the aggregated rows at the ends of the scored edges and adds the bias
  b2 inside its score region, while the reference adds b2 to the aggregated table and gathers afterwards. A gathered
  row of a table plus a bias spread down its rows is the gathered row plus the bias, so the edge scores
  ∑_d (z[u] d + b2 d) · (z[v] d + b2 d) agree entry by entry. Nothing here needs the inputs to be finite.

  The frames of the two kernel programs are the generated ones; the reference's frame is its run with the result
  dropped. The idealization rewrote nothing, so `preserves` is trivial.
-/
import proofs.«166993_j22892175688228_2_alg».proof.Defs
import proofs.«166993_j22892175688228_2_alg».proof.Proof.Gen.Kernel
import proofs.«166993_j22892175688228_2_alg».proof.Proof.Gen.Kernel.Skeleton
import proofs.«166993_j22892175688228_2_alg».proof.Proof.Gen.Kernel.Launch
import proofs.«166993_j22892175688228_2_alg».proof.Proof.Gen.Kernel.Points
import proofs.«166993_j22892175688228_2_alg».proof.Proof.Gen.Kernel.Frame
import proofs.«166993_j22892175688228_2_alg».proof.Proof.Gen.KernelIdeal
import proofs.«166993_j22892175688228_2_alg».proof.Proof.Gen.KernelIdeal.Skeleton
import proofs.«166993_j22892175688228_2_alg».proof.Proof.Gen.KernelIdeal.Launch
import proofs.«166993_j22892175688228_2_alg».proof.Proof.Gen.KernelIdeal.Points
import proofs.«166993_j22892175688228_2_alg».proof.Proof.Gen.KernelIdeal.Frame
import proofs.«166993_j22892175688228_2_alg».proof.Proof.Gen.ReferenceIdeal
import proofs.«166993_j22892175688228_2_alg».proof.Proof.Gen.Pre_finite_inputs
import proofs.«166993_j22892175688228_2_alg».proof.Proof.RefRun
import proofs.«166993_j22892175688228_2_alg».proof.Proof.RefRead
import proofs.«166993_j22892175688228_2_alg».proof.Proof.KRun
import proofs.«166993_j22892175688228_2_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Run from memories that agree on the arguments, both programs end with the same edge scores: the reference's
    last stage of the arguments. -/
theorem algebraic : Cert.algebraic_KernelIdeal_ReferenceIdeal := by
  intro m ρ m' ρ' _ hagree
  refine ⟨fun c => Cert.ReferenceIdeal.ReadP.val_main_v87 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Result.result_eq m ρ c), (h c).2⟩)
      (Cert.KernelIdeal.Result.run_result m ρ)
  · refine (θ_run Cert.ReferenceIdeal.defs _ _).mono (fun _ h c => ⟨?_, (h c).2⟩)
      (Cert.ReferenceIdeal.ValueP.run (F := Ideal) m' ρ')
    obtain ⟨a0, a1, a2, a3, a4, a5, a6, a7⟩ := hagree c
    rw [(h c).1, Cert.ReferenceIdeal.ReadP.val_main_v87_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
